-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x256x1x1 : Shape := ⟨4, ![16, 256, 1, 1]⟩
abbrev S1x256x128x128 : Shape := ⟨4, ![1, 256, 128, 128]⟩
abbrev S1x256x1x1 : Shape := ⟨4, ![1, 256, 1, 1]⟩
abbrev S1x32x128x128 : Shape := ⟨4, ![1, 32, 128, 128]⟩
abbrev S1x32x128 : Shape := ⟨3, ![1, 32, 128]⟩
abbrev S1x32x128x1 : Shape := ⟨4, ![1, 32, 128, 1]⟩
abbrev S1x32x1 : Shape := ⟨3, ![1, 32, 1]⟩
abbrev S1x32x1x1 : Shape := ⟨4, ![1, 32, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S16x256x1x1, .f32⟩
  | .local _ .vmem, ⟨0, _⟩ => ⟨S1x256x128x128, .f32⟩
  | .local _ .vmem, ⟨1, _⟩ => ⟨S1x256x128x128, .f32⟩
  | .local _ .vmem, ⟨2, _⟩ => ⟨S1x256x1x1, .f32⟩
  | .local _ .vmem, ⟨3, _⟩ => ⟨S1x256x1x1, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c32_i32 : BitVec 32 := 32#32
  let v3 : BitVec 32 := Scalar.muli v2 c32_i32
  v3
def k0_off1 (k0_t1 : Fin k0_t1_loop.trips) : Fin 4 → Nat :=
  let c0 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c32_i32 : BitVec 32 := 32#32
  let v3 : BitVec 32 := Scalar.muli v2 c32_i32
  let v4 : BitVec 32 := v3
  let v5 : Index := Scalar.indexCast v4
  let c0_3 : Index := 0#32
  let c0_4 : Index := 0#32
  ![0, v5.toNat, 0, 0]
def k0_off2 (k0_t1 : Fin k0_t1_loop.trips) : Fin 4 → Nat :=
  let c0_6 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c32_i32 : BitVec 32 := 32#32
  let v3 : BitVec 32 := Scalar.muli v2 c32_i32
  let v4 : BitVec 32 := v3
  let v11 : Index := Scalar.indexCast v4
  let c0_7 : Index := 0#32
  let c0_8 : Index := 0#32
  ![0, v11.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x32x128x128 : 0 < S1x32x128x128.numel
  reduces_S1x32x128x128_S1x32x128 : S1x32x128x128.Reduces [3] S1x32x128
  shapeCasts_S1x32x128_S1x32x128x1 : S1x32x128.ShapeCasts S1x32x128x1
  reduces_S1x32x128x1_S1x32x1 : S1x32x128x1.Reduces [2] S1x32x1
  shapeCasts_S1x32x1_S1x32x1x1 : S1x32x1.ShapeCasts S1x32x1x1
  h_S1x32x1x1 : 0 < S1x32x1x1.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x128x128.size a ≤ S1x256x128x128.size a
  k0_off2_inb : ∀ k0_t1 : Fin k0_t1_loop.trips, ∀ a, (k0_off2 k0_t1) a + S1x32x1x1.size a ≤ S1x256x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S16x256x1x1.size a
  hwx0_1 : ∀ i : grid0.Coords, EltTy.bits .f32 = 32 ∨ (Rect.block (s := S16x256x1x1) S1x256x1x1.size (cc0_transform_1 i) (hinb0_1 i)).WholeWords (EltTy.packing .f32)

variable [Facts₀]

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S_ : Shape := ⟨0, ![]⟩
abbrev S16x256 : Shape := ⟨2, ![16, 256]⟩
abbrev S16x256x1x1 : Shape := ⟨4, ![16, 256, 1, 1]⟩

abbrev nBuf : Space → Nat
  | .hbm => 4
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S_, .f32⟩
  | .hbm, ⟨2, _⟩ => ⟨S16x256, .f32⟩
  | .hbm, ⟨3, _⟩ => ⟨S16x256x1x1, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S16x256_S16x256x1x1_0_1 : S16x256.BroadcastsInDim S16x256x1x1 (![0, 1] : Fin 2 → Fin S16x256x1x1.rank)

variable [Facts₀]

class Facts : Prop extends Facts₀ where

variable [Facts]
-- ==== Proof.LibFoldMax.lean ====
/-
  Maxima of finite families in a linear order, folded from a starting value b.

  A maximum is determined by its upper bounds: the fold of max from b over f is at most z exactly when b is at most z
  and every f x is at most z. Two iterated maxima with the same upper bounds are therefore equal, with no appeal to the
  order in which the entries are met and no assumption on b (it need not be a least element).
-/
import Mathlib.Data.Finset.Fold
import Mathlib.Data.Fintype.Prod
import Mathlib.Order.Basic

namespace Cert.Lib.FoldMax

variable {α : Type} [LinearOrder α] {ι κ : Type} [Fintype ι] [Fintype κ]

/-- The upper bounds of a maximum over all of a finite type: those of the starting value and of every entry. -/
theorem fold_univ_le_iff (b z : α) (f : ι → α) :
    (Finset.univ : Finset ι).fold max b f ≤ z ↔ b ≤ z ∧ ∀ i, f i ≤ z := by
  rw [Finset.fold_max_le]
  exact and_congr_right fun _ => ⟨fun h i => h i (Finset.mem_univ i), fun h i _ => h i⟩

/-- The upper bounds of a maximum over the members of a finite type that satisfy p. -/
theorem fold_filter_le_iff (b z : α) (f : ι → α) (p : ι → Prop) [DecidablePred p] :
    ((Finset.univ : Finset ι).filter p).fold max b f ≤ z ↔ b ≤ z ∧ ∀ i, p i → f i ≤ z := by
  rw [Finset.fold_max_le]
  exact and_congr_right fun _ =>
    ⟨fun h i hi => h i (Finset.mem_filter.2 ⟨Finset.mem_univ i, hi⟩), fun h i hi => h i (Finset.mem_filter.1 hi).2⟩

/-- The maximum of the row maxima of a finite rectangle P, every maximum started from the same b, has the upper bounds
    of the rectangle's entries and of b. -/
theorem fold_fold_le_iff (b z : α) (P : ι → κ → α) :
    (Finset.univ : Finset ι).fold max b (fun i => (Finset.univ : Finset κ).fold max b (fun k => P i k)) ≤ z
      ↔ b ≤ z ∧ ∀ i k, P i k ≤ z := by
  rw [fold_univ_le_iff]
  constructor
  · rintro ⟨h0, h⟩
    exact ⟨h0, fun i k => ((fold_univ_le_iff b z (fun k => P i k)).1 (h i)).2 k⟩
  · rintro ⟨h0, h⟩
    exact ⟨h0, fun i => (fold_univ_le_iff b z (fun k => P i k)).2 ⟨h0, h i⟩⟩

/-- Rows first, then the row maxima: the same value as the maximum over the whole rectangle at once. -/
theorem fold_fold_eq_fold_prod (b : α) (P : ι → κ → α) :
    (Finset.univ : Finset ι).fold max b (fun i => (Finset.univ : Finset κ).fold max b (fun k => P i k))
      = (Finset.univ : Finset (ι × κ)).fold max b (fun p => P p.1 p.2) := by
  refine eq_of_forall_ge_iff fun z => ?_
  rw [fold_fold_le_iff, fold_univ_le_iff]
  exact and_congr_right fun _ => ⟨fun h p => h p.1 p.2, fun h i k => h (i, k)⟩

end Cert.Lib.FoldMax
-- ==== Proof.PoolSpec.lean ====
/-
  The pooled value. For a four-axis array X of extended reals whose last two axes have extent 128, the plane (b, c) is
  the 128 x 128 family X[b, c, ., .]; its maximum is taken in the extended reals, started from a value b0 (the programs
  start from minus infinity, but nothing here uses which value it is). The pooled array has shape [B, C, 1, 1] and
  holds at (b, c, 0, 0) the maximum of plane (b, c).

  A maximum is known by its upper bounds, so the plane's maximum is characterised by: it is at most z exactly when b0 is
  at most z and every entry of the plane is at most z. Any value with those upper bounds is the plane's maximum.
-/
import Idealize.ShloMosaic.PureOps.Ideal
import Idealize.ShloMosaic.Lib.ValueIdx
import proofs.«116922_j34565896798756_2_alg».proof.Proof.LibFoldMax

set_option maxRecDepth 16384

noncomputable section

namespace Cert.Pool

open Idealize.ShloMosaic Idealize.ShloMosaic.ValueIdx

/-- The maximum of plane (b, c) of X, started from b0. -/
def planeMax {B C : Nat} (b0 : EReal) (X : (⟨4, ![B, C, 128, 128]⟩ : Shape).Idx → EReal) (b : Fin B) (c : Fin C) : EReal :=
  (Finset.univ : Finset (Fin 128 × Fin 128)).fold max b0 (fun p => X (ix4 b c p.1 p.2))

/-- Its upper bounds: those of b0 and of every entry of the plane. -/
theorem planeMax_le_iff {B C : Nat} (b0 z : EReal) (X : (⟨4, ![B, C, 128, 128]⟩ : Shape).Idx → EReal) (b : Fin B) (c : Fin C) :
    planeMax b0 X b c ≤ z ↔ b0 ≤ z ∧ ∀ h w : Fin 128, X (ix4 b c h w) ≤ z := by
  unfold planeMax
  rw [Cert.Lib.FoldMax.fold_univ_le_iff]
  exact and_congr_right fun _ => ⟨fun H h w => H (h, w), fun H p => H p.1 p.2⟩

/-- A value with the plane's upper bounds is the plane's maximum. -/
theorem eq_planeMax {B C : Nat} (b0 v : EReal) (X : (⟨4, ![B, C, 128, 128]⟩ : Shape).Idx → EReal) (b : Fin B) (c : Fin C)
    (H : ∀ z, v ≤ z ↔ b0 ≤ z ∧ ∀ h w : Fin 128, X (ix4 b c h w) ≤ z) : v = planeMax b0 X b c :=
  eq_of_forall_ge_iff fun z => (H z).trans (planeMax_le_iff b0 z X b c).symm

/-- The pooled array: at (b, c, 0, 0) the maximum of plane (b, c). -/
def pooled {B C : Nat} (b0 : EReal) (X : (⟨4, ![B, C, 128, 128]⟩ : Shape).Idx → EReal) :
    (⟨4, ![B, C, 1, 1]⟩ : Shape).Idx → EReal :=
  fun y => planeMax b0 X (y 0) (y 1)

theorem pooled_apply {B C : Nat} (b0 : EReal) (X : (⟨4, ![B, C, 128, 128]⟩ : Shape).Idx → EReal) (b : Fin B) (c : Fin C)
    (u v : Fin 1) : pooled b0 X (ix4 b c u v) = planeMax b0 X b c := rfl

end Cert.Pool

end
-- ==== Proof.LibTrailingUnit.lean ====
/-
  A view of a rank-3 value with a unit axis added at the END (a reduction with the reduced axis kept: [a, b, c] seen as
  [a, b, c, 1]) reads, at (i, j, k, 0), the value at (i, j, k): the two indices have the same row-major position.
-/
import Idealize.ShloMosaic.Lib.Pipeline.Value
import Idealize.ShloMosaic.Lib.ValueIdx

namespace Cert.Lib.TrailingUnit

open Idealize.ShloMosaic Idealize.ShloMosaic.ValueIdx

/-- A shape cast [d0, d1, d2] to [d0, d1, d2, 1], read at (a, b, c, u), is the operand at (a, b, c). -/
theorem shapeCast_rank3_apply {α : Type} {d0 d1 d2 : Nat} (v : (⟨3, ![d0, d1, d2]⟩ : Shape).Idx → α)
    (h : (⟨3, ![d0, d1, d2]⟩ : Shape).ShapeCasts ⟨4, ![d0, d1, d2, 1]⟩) (a : Fin d0) (b : Fin d1) (c : Fin d2) (u : Fin 1) :
    shapeCast ⟨4, ![d0, d1, d2, 1]⟩ v h (ix4 a b c u) = v (ix3 a b c) := by
  refine shapeCast_apply v h (ix4 a b c u) (ix3 a b c) ?_
  rw [Shape.rowMajor_val_three, Shape.rowMajor_val_four]
  show (a.val * d1 + b.val) * d2 + c.val = ((a.val * d1 + b.val) * d2 + c.val) * 1 + u.val
  have := u.isLt
  omega

end Cert.Lib.TrailingUnit
-- ==== Proof.PoolPayload.lean ====
/-
  One trip's stored value. A trip loads a chunk of 32 channels, v6 of shape [1, 32, 128, 128], takes the maximum along
  the last axis (from minus infinity), views the result with a trailing unit axis, takes the maximum along the
  second-to-last axis (again from minus infinity), and views that with a trailing unit axis: a [1, 32, 1, 1] value whose
  entry (0, c, 0, 0) is the maximum over h of the maximum over w of v6[0, c, h, w]. Its upper bounds are therefore those
  of minus infinity and of every entry of the plane (0, c) of the chunk.
-/
import proofs.«116922_j34565896798756_2_alg».proof.Proof.Gen.KernelIdeal.Skeleton
import proofs.«116922_j34565896798756_2_alg».proof.Proof.PoolSpec
import proofs.«116922_j34565896798756_2_alg».proof.Proof.LibTrailingUnit
import Idealize.ShloMosaic.PureOps.Ideal.Laws
import Idealize.ShloMosaic.Lib.Pipeline.Value
import Idealize.ShloMosaic.Lib.ValueIdx

set_option maxRecDepth 16384

noncomputable section

namespace Cert.Pool

open Idealize.ShloMosaic Idealize.ShloMosaic.ValueIdx Cert.KernelIdeal Cert.KernelIdeal.Gen

/-- Minus infinity, as both programs spell it: the f32 word 0xFF800000 read at the ideal values. It is never evaluated:
    both sides start their maxima from this same value. -/
abbrev negInf : EReal := FloatOps.ofBits (F := Ideal) .f32 0xFF800000#32

/-- The index over (0, c, 0) of the rows-reduced value whose coordinate on the reduced axis is h: (0, c, h, 0). -/
theorem lift_rows (cc : Fin 32) (h : Fin 128) :
    reduces_S1x32x128x1_S1x32x1.lift (ix3 (0 : Fin 1) cc (0 : Fin 1)) h = ix4 (0 : Fin 1) cc h (0 : Fin 1) :=
  funext fun a => Fin.ext (by
    match a with
    | ⟨0, _⟩ => rfl
    | ⟨1, _⟩ => rfl
    | ⟨2, _⟩ => rfl
    | ⟨3, _⟩ => rfl)

/-- The index over (0, c, h) of the lanes-reduced value whose coordinate on the reduced axis is w: (0, c, h, w). -/
theorem lift_lanes (cc : Fin 32) (h w : Fin 128) :
    reduces_S1x32x128x128_S1x32x128.lift (ix3 (0 : Fin 1) cc h) w = ix4 (0 : Fin 1) cc h w :=
  funext fun a => Fin.ext (by
    match a with
    | ⟨0, _⟩ => rfl
    | ⟨1, _⟩ => rfl
    | ⟨2, _⟩ => rfl
    | ⟨3, _⟩ => rfl)

/-- The stored value at (0, c, 0, 0): the maximum over the rows h of the row maxima over w, each started from minus infinity. -/
theorem chunk_eq (v6 : Vec Ideal S1x32x128x128 .f32) (cc : Fin 32) :
    k0_pay1 (F := Ideal) v6 (ix4 (0 : Fin 1) cc (0 : Fin 1) (0 : Fin 1))
      = (Finset.univ : Finset (Fin 128)).fold max negInf
          (fun h => (Finset.univ : Finset (Fin 128)).fold max negInf (fun w => v6 (ix4 (0 : Fin 1) cc h w))) := by
  unfold k0_pay1
  -- the last view: entry (0, c, 0, 0) of the [1, 32, 1, 1] value is entry (0, c, 0) of the [1, 32, 1] one
  refine (Cert.Lib.TrailingUnit.shapeCast_rank3_apply _ shapeCasts_S1x32x1_S1x32x1x1 (0 : Fin 1) cc (0 : Fin 1) (0 : Fin 1)).trans ?_
  -- the maximum along the rows
  refine (Ideal.multiReduction_maximumf_single _ _ reduces_S1x32x128x1_S1x32x1 _ _ _).trans ?_
  refine congrArg (fun f => (Finset.univ : Finset (Fin 128)).fold max negInf f) (funext fun h => ?_)
  -- the first view: entry (0, c, h, 0) of the [1, 32, 128, 1] value is entry (0, c, h) of the [1, 32, 128] one
  rw [Function.comp_apply, lift_rows cc h]
  refine (Cert.Lib.TrailingUnit.shapeCast_rank3_apply _ shapeCasts_S1x32x128_S1x32x128x1 (0 : Fin 1) cc h (0 : Fin 1)).trans ?_
  -- the maximum along a row
  refine (Ideal.multiReduction_maximumf_single _ _ reduces_S1x32x128x128_S1x32x128 _ _ _).trans ?_
  refine congrArg (fun f => (Finset.univ : Finset (Fin 128)).fold max negInf f) (funext fun w => ?_)
  rw [Function.comp_apply, lift_lanes cc h w]

/-- So its upper bounds are those of minus infinity and of the plane (0, c) of the chunk. -/
theorem chunk_le_iff (v6 : Vec Ideal S1x32x128x128 .f32) (cc : Fin 32) (z : EReal) :
    k0_pay1 (F := Ideal) v6 (ix4 (0 : Fin 1) cc (0 : Fin 1) (0 : Fin 1)) ≤ z
      ↔ negInf ≤ z ∧ ∀ h w : Fin 128, v6 (ix4 (0 : Fin 1) cc h w) ≤ z := by
  rw [chunk_eq]
  exact Cert.Lib.FoldMax.fold_fold_le_iff negInf z (fun h w => v6 (ix4 (0 : Fin 1) cc h w))

end Cert.Pool

end
-- ==== Proof.PoolPieces.lean ====
/-
  What the body leaves in the output block. Trip k of the body's loop loads channels 32k .. 32k+31 of the input block x0
  (shape [1, 256, 128, 128]), and stores their plane maxima at channels 32k .. 32k+31 of the output block (shape
  [1, 256, 1, 1]). So every stored piece is the restriction, to the rectangle it is stored at, of ONE function of the
  output block's index: the pooled array of x0. The eight pieces cover the block; hence the block ends holding the
  pooled array of x0, whatever it held before.
-/
import proofs.«116922_j34565896798756_2_alg».proof.Proof.Gen.KernelIdeal.Frame
import proofs.«116922_j34565896798756_2_alg».proof.Proof.PoolPayload
import Idealize.ShloMosaic.Lib.Writes
import Idealize.ShloMosaic.Lib.Pipeline.FrameBody

set_option maxRecDepth 16384

noncomputable section

namespace Cert.Pool

open Idealize.ShloMosaic Idealize.ShloMosaic.ValueIdx Idealize.ShloMosaic.TcCoe Idealize.SL.Sem
open Cert.KernelIdeal Cert.KernelIdeal.Gen

/-- One trip's piece, at trip number kk: the plane maxima of the chunk loaded at channel offset 32 kk, stored at channel
    offset 32 kk, agree with the pooled array of the whole input block at the indices they are stored at. -/
theorem piece_ok (x0 : Vec Ideal S1x256x128x128 .f32) (kk : Nat)
    (inb1 : ∀ a, (![0, 32 * kk, 0, 0] : Fin 4 → Nat) a + S1x32x128x128.size a ≤ S1x256x128x128.size a)
    (inb2 : ∀ a, (![0, 32 * kk, 0, 0] : Fin 4 → Nat) a + S1x32x1x1.size a ≤ S1x256x1x1.size a)
    (x : S1x32x1x1.Idx) :
    k0_pay1 (F := Ideal) (View.ld x0 (Rect.unit (s := S1x256x128x128) ![0, 32 * kk, 0, 0] S1x32x128x128.size inb1)) x
      = pooled negInf x0 ((Rect.unit (s := S1x256x1x1) ![0, 32 * kk, 0, 0] S1x32x1x1.size inb2).emb x) := by
  obtain ⟨u, cc, v, w, rfl⟩ : ∃ (u : Fin 1) (cc : Fin 32) (v w : Fin 1), x = ix4 u cc v w := ⟨x 0, x 1, x 2, x 3, eq_ix4 x⟩
  obtain rfl : u = 0 := Subsingleton.elim _ _
  obtain rfl : v = 0 := Subsingleton.elim _ _
  obtain rfl : w = 0 := Subsingleton.elim _ _
  have hk : 32 * kk + 32 ≤ 256 := inb2 1
  have hcc : cc.val < 32 := cc.isLt
  have hemb : (Rect.unit (s := S1x256x1x1) ![0, 32 * kk, 0, 0] S1x32x1x1.size inb2).emb (ix4 (0 : Fin 1) cc (0 : Fin 1) (0 : Fin 1))
      = ix4 (0 : Fin 1) (⟨32 * kk + cc.val, by omega⟩ : Fin 256) (0 : Fin 1) (0 : Fin 1) := by
    funext a
    apply Fin.ext
    match a with
    | ⟨0, _⟩ => rfl
    | ⟨1, _⟩ => show 32 * kk + 1 * cc.val = 32 * kk + cc.val; omega
    | ⟨2, _⟩ => rfl
    | ⟨3, _⟩ => rfl
  rw [hemb, pooled_apply]
  refine eq_planeMax negInf _ x0 (0 : Fin 1) (⟨32 * kk + cc.val, by omega⟩ : Fin 256) fun z => ?_
  refine (chunk_le_iff _ cc z).trans (and_congr Iff.rfl (forall₂_congr fun r l => ?_))
  have hidx : (Rect.unit (s := S1x256x128x128) ![0, 32 * kk, 0, 0] S1x32x128x128.size inb1).idx (ix4 (0 : Fin 1) cc r l)
      = ix4 (0 : Fin 1) (⟨32 * kk + cc.val, by omega⟩ : Fin 256) r l := by
    funext a
    apply Fin.ext
    match a with
    | ⟨0, _⟩ => rfl
    | ⟨1, _⟩ => show 32 * kk + 1 * cc.val = 32 * kk + cc.val; omega
    | ⟨2, _⟩ => show 0 + 1 * r.val = r.val; omega
    | ⟨3, _⟩ => show 0 + 1 * l.val = l.val; omega
  show x0 ((Rect.unit (s := S1x256x128x128) ![0, 32 * kk, 0, 0] S1x32x128x128.size inb1).idx (ix4 (0 : Fin 1) cc r l)) ≤ z ↔ _
  rw [hidx]

/-- The same with the two offsets as variables, known to be (0, 32 kk, 0, 0). -/
theorem piece_ok_of_eq (x0 : Vec Ideal S1x256x128x128 .f32) (kk : Nat) (off1 off2 : Fin 4 → Nat)
    (h1 : off1 = ![0, 32 * kk, 0, 0]) (h2 : off2 = ![0, 32 * kk, 0, 0])
    (inb1 : ∀ a, off1 a + S1x32x128x128.size a ≤ S1x256x128x128.size a)
    (inb2 : ∀ a, off2 a + S1x32x1x1.size a ≤ S1x256x1x1.size a)
    (x : S1x32x1x1.Idx) :
    k0_pay1 (F := Ideal) (View.ld x0 (Rect.unit (s := S1x256x128x128) off1 S1x32x128x128.size inb1)) x
      = pooled negInf x0 ((Rect.unit (s := S1x256x1x1) off2 S1x32x1x1.size inb2).emb x) := by
  subst h1 h2
  exact piece_ok x0 kk inb1 inb2 x

variable (𝒱 : Variants) (c : Dev nD) (bd : Option 𝒱.V) (i : grid0.Coords)
  (arg2 : Memref sig .tc .vmem S1x256x128x128 .f32) (harg2 : arg2.IsWhole)
  (arg3 : Memref sig .tc .vmem S1x256x1x1 .f32) (harg3 : arg3.IsWhole)

/-- Trip k leaves ONE piece: at channel offset 32 k of the output block, the plane maxima of the chunk read at channel
    offset 32 k of the input block's contents. -/
theorem trip_pieces (X : BufTy.Contents (Elt Ideal) arg2.view.ty) (k : Fin k0_t1_loop.trips) :
    tripL_k0_t1 (F := Ideal) 𝒱 c bd i arg2 harg2 arg3 harg3 X k
      = [⟨Rect.unit (s := S1x256x1x1) (k0_off2 k) S1x32x1x1.size (k0_off2_inb k),
          k0_pay1 (View.ld (arg2.view.read (Elt Ideal) X) (Rect.unit (s := S1x256x128x128) (k0_off1 k) S1x32x128x128.size (k0_off1_inb k)))⟩] := by
  show (trip_k0_t1 (F := Ideal) 𝒱 c bd i arg2 harg2 arg3 harg3 X k).1 = _
  unfold trip_k0_t1
  rfl

/-- So trip k's piece agrees with the pooled array of the input block's contents. -/
theorem trip_ok (X : BufTy.Contents (Elt Ideal) arg2.view.ty) (k : Fin k0_t1_loop.trips) :
    ∀ p ∈ tripL_k0_t1 (F := Ideal) 𝒱 c bd i arg2 harg2 arg3 harg3 X k, ∀ x : p.1.shape.Idx,
      p.2 x = pooled negInf (arg2.view.read (Elt Ideal) X) (p.1.emb x) := by
  rw [trip_pieces]
  intro p hp
  obtain rfl := List.mem_singleton.1 hp
  intro x
  exact piece_ok_of_eq (arg2.view.read (Elt Ideal) X) k.val (k0_off1 k) (k0_off2 k) (k0_off1_eq k) (k0_off2_eq k)
    (k0_off1_inb k) (k0_off2_inb k) x

/-- By induction on the number of trips made: every piece stored so far agrees with the pooled array of the input
    block's contents. -/
theorem loop_ok (X : BufTy.Contents (Elt Ideal) arg2.view.ty) :
    ∀ n : Nat, ∀ p ∈ pb_k0_t1 (F := Ideal) 𝒱 c bd i arg2 harg2 arg3 harg3 X n, ∀ x : p.1.shape.Idx,
      p.2 x = pooled negInf (arg2.view.read (Elt Ideal) X) (p.1.emb x)
  | 0 => by
    intro p hp
    rw [pb_k0_t1.eq_1] at hp
    exact absurd hp List.not_mem_nil
  | n + 1 => by
    intro p hp
    by_cases h : n < k0_t1_loop.trips
    · have e := pb_k0_t1_succ (F := Ideal) 𝒱 c bd i arg2 harg2 arg3 harg3 X ⟨n, h⟩
      rw [e] at hp
      rcases List.mem_append.1 hp with h1 | h2
      · exact trip_ok 𝒱 c bd i arg2 harg2 arg3 harg3 X ⟨n, h⟩ p h1
      · exact loop_ok X n p h2
    · have e : pb_k0_t1 (F := Ideal) 𝒱 c bd i arg2 harg2 arg3 harg3 X (n + 1)
          = pb_k0_t1 (F := Ideal) 𝒱 c bd i arg2 harg2 arg3 harg3 X n := by
        rw [pb_k0_t1.eq_2]; unfold pb_k0_t1Step; exact dif_neg h
      rw [e] at hp
      exact loop_ok X n p hp

/-- The whole body's pieces are the loop's, from the input block x0 as the staging buffer's contents. -/
theorem run_pieces (x0 : Vec Ideal S1x256x128x128 .f32) :
    (kernelRun0_A (F := Ideal) c i arg2 harg2 arg3 harg3 x0).1
      = pb_k0_t1 (F := Ideal) Variants.none c none i arg2 harg2 arg3 harg3 (harg2.unread x0) k0_t1_loop.trips := by
  unfold kernelRun0_A
  rfl

/-- THE OUTPUT BLOCK after the body: the pooled array of the input block. -/
theorem out_eq (x0 : Vec Ideal S1x256x128x128 .f32) :
    out0_A_1 (F := Ideal) c i arg2 harg2 arg3 harg3 x0 = pooled negInf x0 := by
  funext y
  unfold out0_A_1
  refine View.read_writes_apply_of_pieces VO0_1 _ (pooled negInf x0) _ ?_ y (cover0_A_1 c i arg2 harg2 arg3 harg3 x0 y)
  rw [run_pieces]
  have H := loop_ok Variants.none c none i arg2 harg2 arg3 harg3 (harg2.unread x0) k0_t1_loop.trips
  rwa [harg2.read_unread] at H

end Cert.Pool

end
-- ==== Proof.PoolKernel.lean ====
/-
  From blocks to the array. The grid has 16 points; point t stages batch entry t of the input, X[t, ., ., .], as its
  input block and writes its output block back to batch entry t of the result. The body leaves the pooled array of the
  input block in the output block, and the pooled array of batch entry t of X is batch entry t of the pooled array of X
  (a plane of the block is a plane of X). The 16 output blocks tile the result array, so the result array ends holding
  the pooled array of X.
-/
import proofs.«116922_j34565896798756_2_alg».proof.Proof.Gen.KernelIdeal.Value
import proofs.«116922_j34565896798756_2_alg».proof.Proof.PoolPieces
import Idealize.ShloMosaic.Lib.Pipeline.Value

set_option maxRecDepth 16384

noncomputable section

namespace Cert.Pool.Kernel

open Idealize.ShloMosaic Idealize.ShloMosaic.ValueIdx Idealize.ShloMosaic.TcCoe Idealize.SL.Sem
open Idealize.ShloMosaic.Pipeline (Dat)
open Cert.KernelIdeal Cert.KernelIdeal.Gen Cert.Pool

variable (m : (ℓ : Loc nD τ sig) → Buf (Elt Ideal) ℓ) (ρ : Dev nD → PrngReg)

/-- A block x0 that is batch entry tb of X has, at channel c, the plane maximum X has at (tb, c). -/
theorem plane_of_block (X : (⟨4, ![16, 256, 128, 128]⟩ : Shape).Idx → EReal) (x0 : (⟨4, ![1, 256, 128, 128]⟩ : Shape).Idx → EReal)
    (tb : Fin 16) (hx : ∀ (cch : Fin 256) (r l : Fin 128), x0 (ix4 (0 : Fin 1) cch r l) = X (ix4 tb cch r l)) (cch : Fin 256) :
    planeMax negInf x0 (0 : Fin 1) cch = planeMax negInf X tb cch :=
  eq_planeMax negInf _ X tb cch fun z =>
    (planeMax_le_iff negInf z x0 (0 : Fin 1) cch).trans
      (and_congr Iff.rfl (forall₂_congr fun r l => by rw [hx cch r l]))

/-- The printed index maps, decided over the 16 grid points: both windows sit at batch entry t, at the origin of the
    other axes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- WHAT POINT t WRITES BACK is block t of the pooled array of the input as the region finds it. -/
theorem flushed_eq (c : Dev nD) (t : Fin cfg0.N) :
    (dats m 0 c).flushed 1 t
      = ((cfg0.win 1).blk t).view.read (Elt Ideal) (pooled (B := 16) (C := 256) negInf (V m c main_arg0)) := by
  rw [Cert.KernelIdeal.Value.flushed1_A m c t, out_eq c (grid0.coords t) (ms0_0 t) (hs0_0 t) (ms0_1 t) (hs0_1 t) (iblk m c 0 t)]
  obtain ⟨a0, a1, a2, a3, b0, b1, b2, b3⟩ := idx_facts t
  have hN : cfg0.N = 16 := N_0
  have ht : t.val < 16 := by have := t.isLt; omega
  funext j
  rw [View.read_apply]
  have hj0 : (j 0).val < 1 := (j 0).isLt
  have hj1 : (j 1).val < 256 := (j 1).isLt
  have hj2 : (j 2).val < 1 := (j 2).isLt
  have hj3 : (j 3).val < 1 := (j 3).isLt
  -- where the block's index j sits in the result array: (t, j1, 0, 0)
  have hemb : ((cfg0.win 1).blk t).view.emb j = ix4 (⟨t.val, ht⟩ : Fin 16) (⟨(j 1).val, hj1⟩ : Fin 256) (0 : Fin 1) (0 : Fin 1) := by
    funext a
    apply Fin.ext
    match a with
    | ⟨0, _⟩ => show win0_1.index t (0 : Fin 4) * 1 + 1 * (j 0).val = t.val; omega
    | ⟨1, _⟩ => show win0_1.index t (1 : Fin 4) * 256 + 1 * (j 1).val = (j 1).val; omega
    | ⟨2, _⟩ => show win0_1.index t (2 : Fin 4) * 1 + 1 * (j 2).val = 0; omega
    | ⟨3, _⟩ => show win0_1.index t (3 : Fin 4) * 1 + 1 * (j 3).val = 0; omega
  -- and in the output block: (0, j1, 0, 0)
  have hcut : (cfg0.win 1).xinj (grid0.coords t) j = ix4 (0 : Fin 1) (⟨(j 1).val, hj1⟩ : Fin 256) (0 : Fin 1) (0 : Fin 1) := by
    funext a
    apply Fin.ext
    match a with
    | ⟨0, _⟩ => show (j 0).val = 0; omega
    | ⟨1, _⟩ => rfl
    | ⟨2, _⟩ => show (j 2).val = 0; omega
    | ⟨3, _⟩ => show (j 3).val = 0; omega
  rw [hemb, pooled_apply]
  show pooled (B := 1) (C := 256) negInf (iblk m c 0 t) ((cfg0.win 1).xinj (grid0.coords t) j) = _
  rw [hcut, pooled_apply]
  refine plane_of_block (V m c main_arg0) (iblk m c 0 t) ⟨t.val, ht⟩ (fun cch r l => ?_) ⟨(j 1).val, hj1⟩
  -- the input block at (0, c, r, l) is X at (t, c, r, l)
  unfold iblk
  rw [View.read_apply]
  show V m c main_arg0 (((cfg0.win 0).blk t).view.emb (ix4 (0 : Fin 1) cch r l)) = V m c main_arg0 (ix4 (⟨t.val, ht⟩ : Fin 16) cch r l)
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 256 + 1 * cch.val = cch.val; omega
  | ⟨2, _⟩ => show win0_0.index t (2 : Fin 4) * 128 + 1 * r.val = r.val; omega
  | ⟨3, _⟩ => show win0_0.index t (3 : Fin 4) * 128 + 1 * l.val = l.val; omega

/-- An index of the result array is in point t's block iff each coordinate is in the block's range on its axis. -/
theorem mem_blk (t : Fin cfg0.N) (i : S16x256x1x1.Idx) :
    i ∈ ((cfg0.win 1).blk t).view.set ↔ ∀ a : Fin 4, win0_1.index t a * S1x256x1x1.size a ≤ (i a).val
      ∧ (i a).val < win0_1.index t a * S1x256x1x1.size a + S1x256x1x1.size a := by
  show i ∈ ((View.whole main_v0).slice (win0_1.rect t)).set ↔ _
  rw [View.set_slice_whole, Rect.mem_set_unit]
  exact Iff.rfl

/-- Every index (b, c, 0, 0) of the result array is in the block of point b, which writes back. -/
theorem cover (i : S16x256x1x1.Idx) :
    ∃ t : Fin cfg0.N, (cfg0.win 1).flush t = true ∧ i ∈ ((cfg0.win 1).blk t).view.set := by
  have hN : cfg0.N = 16 := N_0
  have hi0 : (i 0).val < 16 := (i 0).isLt
  have hi1 : (i 1).val < 256 := (i 1).isLt
  have hi2 : (i 2).val < 1 := (i 2).isLt
  have hi3 : (i 3).val < 1 := (i 3).isLt
  refine ⟨⟨(i 0).val, by omega⟩, flush0_1 _, ?_⟩
  obtain ⟨-, -, -, -, b0, b1, b2, b3⟩ := idx_facts ⟨(i 0).val, by omega⟩
  rw [mem_blk]
  intro a
  match a with
  | ⟨0, _⟩ => show win0_1.index ⟨(i 0).val, _⟩ (0 : Fin 4) * 1 ≤ (i 0).val ∧ (i 0).val < win0_1.index ⟨(i 0).val, _⟩ (0 : Fin 4) * 1 + 1; simp only at b0; omega
  | ⟨1, _⟩ => show win0_1.index ⟨(i 0).val, _⟩ (1 : Fin 4) * 256 ≤ (i 1).val ∧ (i 1).val < win0_1.index ⟨(i 0).val, _⟩ (1 : Fin 4) * 256 + 256; omega
  | ⟨2, _⟩ => show win0_1.index ⟨(i 0).val, _⟩ (2 : Fin 4) * 1 ≤ (i 2).val ∧ (i 2).val < win0_1.index ⟨(i 0).val, _⟩ (2 : Fin 4) * 1 + 1; omega
  | ⟨3, _⟩ => show win0_1.index ⟨(i 0).val, _⟩ (3 : Fin 4) * 1 ≤ (i 3).val ∧ (i 3).val < win0_1.index ⟨(i 0).val, _⟩ (3 : Fin 4) * 1 + 1; omega

/-- THE RESULT ARRAY after the run: the pooled array of the input. -/
theorem final (c : Dev nD) :
    (dats m 0 c).arrAt 1 cfg0.N = pooled (B := 16) (C := 256) negInf (V m c main_arg0) :=
  (dats m 0 c).arrAt_eq_of_cover 1 (pooled (B := 16) (C := 256) negInf (V m c main_arg0)) (fun t _ => flushed_eq m c t) cover

/-- The kernel's run, read: the result array holds the pooled array of the argument, the argument is unchanged. -/
theorem run : θ_run defs (onTc (τ := τ) (main (F := Ideal))) ⟨m, fun _ => 0, ρ⟩ fun r => ∀ c : Dev nD,
      r.2.mem ((c : Thread nD τ).loc main_v0) = pooled (B := 16) (C := 256) negInf (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Pool.Kernel

end
-- ==== Proof.PoolRef.lean ====
/-
  The reference computes the pooled value. Its result at (b, c, u, v) is, by the broadcast, its reduction's result at
  (b, c); and that is the maximum, started from minus infinity, over the entries of the input whose first two coordinates
  are (b, c): the entries of plane (b, c). So it has the plane's upper bounds, and is the plane's maximum.
-/
import proofs.«116922_j34565896798756_2_alg».proof.Proof.Gen.ReferenceIdeal.Read
import proofs.«116922_j34565896798756_2_alg».proof.Proof.PoolSpec
import Idealize.ShloMosaic.PureOps.Ideal.Laws
import Idealize.ShloMosaic.PureOps.Reduce
import Idealize.ShloMosaic.Lib.ValueIdx

set_option maxRecDepth 16384

noncomputable section

namespace Cert.Pool.Ref

open Idealize.ShloMosaic Idealize.ShloMosaic.ValueIdx Cert.ReferenceIdeal Cert.ReferenceIdeal.Gen Cert.ReferenceIdeal.Read

/-- Minus infinity, as the reference spells it: the f32 word 0xFF800000 read at the ideal values. -/
abbrev negInf : EReal := FloatOps.ofBits (F := Ideal) .f32 0xFF800000#32

/-- The reduction at (b, c): its upper bounds are those of minus infinity and of the entries of plane (b, c). -/
theorem reduce_le_iff (X : (⟨4, ![16, 256, 128, 128]⟩ : Shape).Idx → EReal) (b : Fin 16) (c : Fin 256) (z : EReal) :
    val_main_v0 (F := Ideal) X (ix2 b c) ≤ z ↔ negInf ≤ z ∧ ∀ r l : Fin 128, X (ix4 b c r l) ≤ z := by
  unfold val_main_v0
  rw [Host.reduce_eq_fold]
  refine (Cert.Lib.FoldMax.fold_filter_le_iff _ z X _).trans (and_congr Iff.rfl ⟨fun H r l => H (ix4 b c r l) ?_, fun H i hi => ?_⟩)
  · -- the entry (b, c, r, l) reduces to (b, c)
    funext a
    apply Fin.ext
    match a with
    | ⟨0, _⟩ => exact reducesTo_S16x256x128x128_S16x256_d2_3.drop_apply_val_of_eq (ix4 b c r l) 0 0
    | ⟨1, _⟩ => exact reducesTo_S16x256x128x128_S16x256_d2_3.drop_apply_val_of_eq (ix4 b c r l) 1 1
  · -- an entry that reduces to (b, c) is (b, c, r, l) for its own last two coordinates
    have h0 : (i 0).val = b.val :=
      (reducesTo_S16x256x128x128_S16x256_d2_3.drop_apply_val_of_eq i 0 0).symm.trans (congrArg (fun j : S16x256.Idx => (j 0).val) hi)
    have h1 : (i 1).val = c.val :=
      (reducesTo_S16x256x128x128_S16x256_d2_3.drop_apply_val_of_eq i 1 1).symm.trans (congrArg (fun j : S16x256.Idx => (j 1).val) hi)
    have e : i = ix4 b c (i 2) (i 3) := by
      funext a
      apply Fin.ext
      match a with
      | ⟨0, _⟩ => exact h0
      | ⟨1, _⟩ => exact h1
      | ⟨2, _⟩ => rfl
      | ⟨3, _⟩ => rfl
    exact (congrArg (fun j => X j ≤ z) e).mpr (H (i 2) (i 3))

/-- The reference's result at (b, c, u, v) is the maximum of plane (b, c). -/
theorem result_apply (X : (⟨4, ![16, 256, 128, 128]⟩ : Shape).Idx → EReal) (b : Fin 16) (c : Fin 256) (u v : Fin 1) :
    val_main_v1 (F := Ideal) X (ix4 b c u v) = Cert.Pool.planeMax negInf X b c := by
  refine (val_main_v1_apply (F := Ideal) X (ix4 b c u v)).trans ?_
  have e : idx_main_v1 (ix4 b c u v) = ix2 b c := by
    funext a
    match a with
    | ⟨0, _⟩ => rfl
    | ⟨1, _⟩ => rfl
  rw [e]
  exact Cert.Pool.eq_planeMax negInf _ X b c (reduce_le_iff X b c)

/-- The reference's result array is the pooled array of its input. -/
theorem result_eq (X : (⟨4, ![16, 256, 128, 128]⟩ : Shape).Idx → EReal) :
    val_main_v1 (F := Ideal) X = Cert.Pool.pooled negInf X := by
  funext y
  have hy : y = ix4 (y 0) (y 1) (y 2) (y 3) := eq_ix4 (n0 := 16) (n1 := 256) (n2 := 1) (n3 := 1) y
  rw [hy]
  exact result_apply X (y 0) (y 1) (y 2) (y 3)

end Cert.Pool.Ref

end
-- ==== Proof.lean ====
/- The certificate of a global max-pool. The kernel pools a [16, 256, 128, 128] array over its last two axes into
   [16, 256, 1, 1]: for each batch entry it walks the 256 channels in eight chunks of 32, and for each chunk takes the
   maximum along the last axis and then along the second-to-last, both started from minus infinity. The reference takes
   one maximum over both axes at once, started from minus infinity.

   Over the extended reals both are the plane maximum: a maximum is determined by its upper bounds, and the maximum of row
   maxima has the upper bounds of all the entries (and of the starting value). Neither finiteness of the input nor the
   value of the starting word is used: both sides start from the same word.

   The three frames are the generated ones (the reference's is its generated run with the result dropped); the ideal pass
   rewrote nothing, so the idealization claim is trivial; the algebraic claim sets the kernel's run, whose result array
   is the pooled array of the argument, beside the reference's run, whose result is the same function of the argument. -/
import proofs.«116922_j34565896798756_2_alg».proof.Defs
import proofs.«116922_j34565896798756_2_alg».proof.Proof.Gen.Kernel
import proofs.«116922_j34565896798756_2_alg».proof.Proof.Gen.Kernel.Skeleton
import proofs.«116922_j34565896798756_2_alg».proof.Proof.Gen.Kernel.Loops
import proofs.«116922_j34565896798756_2_alg».proof.Proof.Gen.Kernel.Launch
import proofs.«116922_j34565896798756_2_alg».proof.Proof.Gen.Kernel.Points
import proofs.«116922_j34565896798756_2_alg».proof.Proof.Gen.Kernel.Frame
import proofs.«116922_j34565896798756_2_alg».proof.Proof.Gen.KernelIdeal
import proofs.«116922_j34565896798756_2_alg».proof.Proof.Gen.KernelIdeal.Skeleton
import proofs.«116922_j34565896798756_2_alg».proof.Proof.Gen.KernelIdeal.Loops
import proofs.«116922_j34565896798756_2_alg».proof.Proof.Gen.KernelIdeal.Launch
import proofs.«116922_j34565896798756_2_alg».proof.Proof.Gen.KernelIdeal.Points
import proofs.«116922_j34565896798756_2_alg».proof.Proof.Gen.KernelIdeal.Frame
import proofs.«116922_j34565896798756_2_alg».proof.Proof.Gen.ReferenceIdeal
import proofs.«116922_j34565896798756_2_alg».proof.Proof.Gen.Pre_finite_inputs
import proofs.«116922_j34565896798756_2_alg».proof.Proof.Gen.KernelIdeal.Value
import proofs.«116922_j34565896798756_2_alg».proof.Proof.Gen.ReferenceIdeal.Run
import proofs.«116922_j34565896798756_2_alg».proof.Proof.Gen.ReferenceIdeal.Read
import proofs.«116922_j34565896798756_2_alg».proof.Proof.PoolKernel
import proofs.«116922_j34565896798756_2_alg».proof.Proof.PoolRef
import Idealize.ShloMosaic.Adequacy
import Idealize.ShloMosaic.Init

noncomputable section

namespace Cert.Proof

open Idealize.ShloMosaic Idealize.SL.Sem Cert.Kernel

/-- The kernel's frame at the word level: the generated frame. -/
theorem frame_k : Cert.frame_Kernel := fun m ρ _ => Cert.Kernel.Gen.frame m ρ

/-- The idealized kernel's frame: the generated frame. -/
theorem frame_ki : Cert.frame_KernelIdeal := fun m ρ _ => Cert.KernelIdeal.Gen.frame m ρ

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the pooled array of the argument as their result. -/
theorem algebraic : Cert.algebraic_KernelIdeal_ReferenceIdeal := by
  intro m ρ m' ρ' _ hagree
  refine ⟨_, Cert.Pool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.Pool.Ref.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
